-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x128 .f32) (main_arg4 : FVec F S128 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 97
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result buffer named.

  @main is eight segments: three stretches of host operations, the first projection kernel, two stretches, the second
  projection kernel, one last stretch. The buffer contents at each boundary are a fold through the segments from the
  launch memory; at the end every buffer the program does not scope holds the last fold's contents. So the result
  buffer ends at the last fold's contents there, and each argument ends as launched: no host operation and no kernel
  writes an argument, so the fold at an argument's buffer walks back to the launch memory.
-/
import proofs.«152058_j28759101014034_1_alg».proof.Proof.Gen.KernelIdeal.Frame

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last fold's
    contents and each argument array as launched. -/
theorem run_named : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Proj

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.MatmulRead.lean ====
/-
  The two projection kernels' arithmetic, read at a row and a column, over the extended reals.

  Each kernel body rounds its two operand blocks to bf16 (the identity on the extended reals) and feeds them to the
  matrix unit with a zero accumulator. So the stored block, at row p and column q, is the sum over the inner
  position k of  a (p, k) * w (k, q).  The dimension numbers of both bodies (and of the reference's two
  dot_general operations, which have the same lists) are those of a plain product: contract the left operand's
  second axis with the right operand's first, batch nothing.
-/
import proofs.«152058_j28759101014034_1_alg».proof.Proof.Gen.KernelIdeal.Skeleton
import proofs.«152058_j28759101014034_1_alg».proof.Proof.LibDotIx2
import Idealize.ShloMosaic.Lib.Pipeline.Value

noncomputable section

open scoped BigOperators

namespace Idealize.ShloMosaic.ValueIdx

open Idealize.ShloMosaic

/-- Dimension numbers given by the lists  batch [] [] , free [0] [1] , contracted [1] [0]  are a plain product's. -/
theorem PlainDot.of_lists {M K N : ℕ} (d : DotDims (⟨2, ![M, K]⟩ : Shape) (⟨2, ![K, N]⟩ : Shape) (⟨2, ![M, N]⟩ : Shape))
    (hlb : d.lhsBatch = []) (hln : d.lhsNonContracting = [0]) (hlc : d.lhsContracting = [1])
    (hrb : d.rhsBatch = []) (hrn : d.rhsNonContracting = [1]) (hrc : d.rhsContracting = [0]) : PlainDot d where
  rank := by rw [d.rank_contr, hlc]; rfl
  size := by
    have h := d.size_contr 0 (by rw [hlc]; exact Nat.one_pos)
    rw [h]; simp only [hlc]; rfl
  l0 := fun j q => by
    unfold DotDims.lhsIdx
    rw [dif_neg (by rw [hlb]; exact List.not_mem_nil), dif_pos (by rw [hln]; exact List.mem_singleton.mpr rfl)]
    simp only [Fin.val_cast]
    have key : ∀ (a b : Nat) (ha : a < 2) (hb : b < 2), a = b → (j ⟨a, ha⟩).val = (j ⟨b, hb⟩).val :=
      fun a b ha hb h => by subst h; rfl
    exact key _ _ _ _ (by simp [hlb, hln])
  l1 := fun j q => d.lhsIdx_val_of_single hlc j q
  r0 := fun j q => d.rhsIdx_val_of_single hrc j q
  r1 := fun j q => by
    unfold DotDims.rhsIdx
    rw [dif_neg (by rw [hrb]; exact List.not_mem_nil), dif_pos (by rw [hrn]; exact List.mem_singleton.mpr rfl)]
    simp only [Fin.val_cast]
    have key : ∀ (a b : Nat) (ha : a < 2) (hb : b < 2), a = b → (j ⟨a, ha⟩).val = (j ⟨b, hb⟩).val :=
      fun a b ha hb h => by subst h; rfl
    exact key _ _ _ _ (by simp [hlb, hln, hrn])

end Idealize.ShloMosaic.ValueIdx

namespace Cert.KernelIdeal.Proj

open Idealize.ShloMosaic Idealize.ShloMosaic.ValueIdx Cert.KernelIdeal

/-- The first kernel's dimension numbers are a plain 2000 x 512 by 512 x 256 product's. -/
theorem plain0 : PlainDot dot_S2000x512_S512x256_S2000x256_1_0_0_1_n_n :=
  PlainDot.of_lists _ rfl rfl rfl rfl rfl rfl

/-- The second kernel's are a plain 2000 x 256 by 256 x 128 product's. -/
theorem plain1 : PlainDot dot_S2000x256_S256x128_S2000x128_1_0_0_1_n_n :=
  PlainDot.of_lists _ rfl rfl rfl rfl rfl rfl

/-- The first kernel's stored block at (p, q): the sum over k of a (p, k) * w (k, q). -/
theorem pay0_apply (a : Vec Ideal S2000x512 .f32) (w : Vec Ideal S512x256 .f32) (p : Fin 2000) (q : Fin 256) :
    Gen.k0_pay1 a w (ix2 p q) = ∑ k : Fin 512, (a (ix2 p k) : EReal) * (w (ix2 k q) : EReal) := by
  unfold Gen.k0_pay1
  exact matmul_zero_ix2_any plain0 none _ _ p q

/-- The second kernel's stored block at (p, q): the sum over k of h (p, k) * w (k, q). -/
theorem pay1_apply (h : Vec Ideal S2000x256 .f32) (w : Vec Ideal S256x128 .f32) (p : Fin 2000) (q : Fin 128) :
    Gen.k1_pay1 h w (ix2 p q) = ∑ k : Fin 256, (h (ix2 p k) : EReal) * (w (ix2 k q) : EReal) := by
  unfold Gen.k1_pay1
  rw [shapeCast_self]
  exact matmul_zero_ix2_any plain1 none _ _ p q

end Cert.KernelIdeal.Proj

end
-- ==== Proof.Spec.lean ====
/-
  The graph convolution both programs compute, as functions of the argument arrays.

  Nodes 0 .. 49999, 800000 given edges (row 0 of edge_index: sources, row 1: targets) and one self-loop per node:
  850000 edges in all.  deg (v) counts the edges whose target is v; dinv (v) = deg (v) ^ (-1/2) where deg (v) > 0, else 0;
  the weight of edge e is  dinv (src e) * dinv (dst e).  One convolution layer takes projected features h (one row per
  node) to  out (v) = sum over edges e with dst e = v of  h (src e) * weight e,  plus the bias row.  The network is
  sigmoid (conv (relu (conv (x W1) + b1) W2) + b2).  The sparse part (gather, scale, scatter-add, bias, relu, sigmoid) is
  spelt by the same host operations in both programs; only the two dense products are computed differently, and they
  enter the functions below as the argument h.
-/
import proofs.«152058_j28759101014034_1_alg».proof.Proof.Gen.KernelIdeal
import Idealize.ShloMosaic.Lib.ValueIdx

noncomputable section

open scoped BigOperators

namespace Cert.Gcn

open Idealize.ShloMosaic Idealize.ShloMosaic.ValueIdx Cert.KernelIdeal Cert.KernelIdeal.Gen

variable {F : FTy → Type} [FloatOps F]

/-- The contents of an array of shape S and element type t. -/
abbrev Arr (F : FTy → Type) [FloatOps F] (S : Shape) (t : EltTy) : Type := (⟨S, t⟩ : BufTy).Contents (Elt F)

/-- Edge sources: row 0 of the edge list, then node v for the self-loop of v. -/
def srcOf (e : Arr F S2x800000 .i32) : Arr F S850000 .i32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- Edge targets: row 1 of the edge list, then node v for the self-loop of v. -/
def dstOf (e : Arr F S2x800000 .i32) : Arr F S850000 .i32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A node list as gather indices: a negative entry v reads v + 50000; kept as a column. -/
def wrapCol (v : Arr F S850000 .i32) : Arr F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- deg (v): the number of edges whose target is v (a scatter-add of ones into zeros). -/
def degOf (d : Arr F S850000 .i32) : Arr F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- dinv (v) = deg (v) ^ (-1/2) where deg (v) > 0, else 0. -/
def dinvOf (deg : Arr F S50000 .f32) : Arr F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- The weight of each edge: dinv (src) * dinv (dst). -/
def normOf (s d : Arr F S850000 .i32) : Arr F S850000 .f32 :=
  mulf (Host.gather gather_S50000_S850000x1_S850000_n_0_n_n_0_1_1 (dinvOf (degOf d)) (wrapCol s))
    (Host.gather gather_S50000_S850000x1_S850000_n_0_n_n_0_1_1 (dinvOf (degOf d)) (wrapCol d))

/-- First layer after its projection h: aggregate h (src) * weight into dst, add the bias row, clamp below at 0. -/
def layer1 (h : Arr F S50000x256 .f32) (s d : Arr F S850000 .i32) (nrm : Arr F S850000 .f32) (b : Arr F S256 .f32) : Arr F S50000x256 .f32 :=
  maximumf
    (addf
      (Host.scatterAdd scatter_S50000x256_S850000x1_S850000x256_1_0_0_1 (broadcastInDim S50000x256 ![] bcast_S_S50000x256 (constant S_ .f32 0x00000000#32))
        (broadcastInDim S850000x1 ![0] bcast_S850000_S850000x1_0 d)
        (mulf (Host.gather gather_S50000x256_S850000x1_S850000x256_1_0_n_n_0_1_1256 h (wrapCol s))
          (broadcastInDim S850000x256 ![0, 1] bcast_S850000x1_S850000x256_0_1 (broadcastInDim S850000x1 ![0] bcast_S850000_S850000x1_0 nrm))))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Second layer after its projection h: aggregate, add the bias row, then 1 / (1 + exp (- .)). -/
def layer2 (h : Arr F S50000x128 .f32) (s d : Arr F S850000 .i32) (nrm : Arr F S850000 .f32) (b : Arr F S128 .f32) : Arr F S50000x128 .f32 :=
  Host.divf (broadcastInDim S50000x128 ![] bcast_S_S50000x128 (constant S_ .f32 0x3F800000#32))
    (addf (broadcastInDim S50000x128 ![] bcast_S_S50000x128 (constant S_ .f32 0x3F800000#32))
      (Host.exp (Host.negf
        (addf
          (Host.scatterAdd scatter_S50000x128_S850000x1_S850000x128_1_0_0_1 (broadcastInDim S50000x128 ![] bcast_S_S50000x128 (constant S_ .f32 0x00000000#32))
            (broadcastInDim S850000x1 ![0] bcast_S850000_S850000x1_0 d)
            (mulf (Host.gather gather_S50000x128_S850000x1_S850000x128_1_0_n_n_0_1_1128 h (wrapCol s))
              (broadcastInDim S850000x128 ![0, 1] bcast_S850000x1_S850000x128_0_1 (broadcastInDim S850000x1 ![0] bcast_S850000_S850000x1_0 nrm))))
          (broadcastInDim S50000x128 ![0, 1] bcast_S1x128_S50000x128_0_1 (broadcastInDim S1x128 ![1] bcast_S128_S1x128_1 b))))))

/-- A dense product over the extended reals: entry (r, c) is the sum over k of x (r, k) * w (k, c). -/
def matProd {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_ix2 {M K N : ℕ} (x : (⟨2, ![M, K]⟩ : Shape).Idx → EReal) (w : (⟨2, ![K, N]⟩ : Shape).Idx → EReal) (r : Fin M) (c : Fin N) :
    matProd x w (ix2 r c) = ∑ k : Fin K, x (ix2 r k) * w (ix2 k c) := rfl

/-- The whole network from its two projections' rule P1, P2 (how a dense product is computed). -/
def net (P1 : Arr F S50000x512 .f32 → Arr F S512x256 .f32 → Arr F S50000x256 .f32)
    (P2 : Arr F S50000x256 .f32 → Arr F S256x128 .f32 → Arr F S50000x128 .f32)
    (x : Arr F S50000x512 .f32) (w1 : Arr F S512x256 .f32) (b1 : Arr F S256 .f32) (w2 : Arr F S256x128 .f32) (b2 : Arr F S128 .f32)
    (e : Arr F S2x800000 .i32) : Arr F S50000x128 .f32 :=
  layer2 (P2 (layer1 (P1 x w1) (srcOf e) (dstOf e) (normOf (srcOf e) (dstOf e)) b1) w2) (srcOf e) (dstOf e) (normOf (srcOf e) (dstOf e)) b2

end Cert.Gcn

end
-- ==== Proof.Region0.lean ====
/-
  What projection kernel 0 leaves in its output array, whatever the buffers hold when the kernel is entered.

  The grid has 25 points. At point t the body reads rows  2000 t .. 2000 t + 1999  of the left operand (all 512
  columns) and the whole right operand, and writes rows  2000 t .. 2000 t + 1999  of the output (all 256 columns).
  The stored block's entry (p, q) is the sum over k of  left (2000 t + p, k) * right (k, q),  which is the entry
  (2000 t + p, q) of the dense product of the two arrays. The 25 row blocks tile the output, so after the last point
  the output array is the dense product.
-/
import proofs.«152058_j28759101014034_1_alg».proof.Proof.Gen.KernelIdeal.Frame
import proofs.«152058_j28759101014034_1_alg».proof.Proof.MatmulRead
import proofs.«152058_j28759101014034_1_alg».proof.Proof.Spec

set_option maxRecDepth 16384

noncomputable section

open scoped BigOperators

namespace Cert.KernelIdeal.Proj

open Idealize.ShloMosaic Idealize.ShloMosaic.TcCoe Idealize.ShloMosaic.ValueIdx Idealize.ShloMosaic.Pipeline Idealize.SL.Sem Cert.KernelIdeal Cert.KernelIdeal.Gen Cert.Gcn

variable (V : (c : Dev nD) → (b : Ref sig .tc) → Buf (Elt Ideal) ((c : Thread nD τ).loc b))

theorem origin0 : (![0, 0] : Fin 2 → Nat) = fun _ => 0 := funext fun a => by fin_cases a <;> rfl

/-- The printed block-index maps over the grid: the left operand's and the output's row block is the point's number,
    every column block is 0, and the right operand is one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 2000 t + p of the array. -/
theorem rowLt0 (t : Fin cfg0.N) (p : Fin 2000) : t.val * 2000 + p.val < 50000 := by
  have ht : t.val < 25 := lt_of_lt_of_eq t.isLt N_0
  have hp := p.isLt
  omega

/-- The left operand's block at point t, at (p, k): the array at (2000 t + p, k). -/
theorem leftBlock0 (c : Dev nD) (t : Fin cfg0.N) (p : Fin 2000) (k : Fin 512) :
    iblk0 (F := Ideal) V c 0 t (ix2 p k) = (V c main_arg0 : S50000x512.Idx → EReal) (ix2 ⟨t.val * 2000 + p.val, rowLt0 t p⟩ k) := by
  obtain ⟨e0, e1, -, -, -, -⟩ := blockIdx0 t
  show (V c main_arg0 : S50000x512.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right operand's block at any point is the whole array. -/
theorem rightBlock0 (c : Dev nD) (t : Fin cfg0.N) (k : Fin 512) (q : Fin 256) :
    iblk0 (F := Ideal) V c 1 t (ix2 k q) = (V c main_arg1 : S512x256.Idx → EReal) (ix2 k q) := by
  obtain ⟨-, -, e2, e3, -, -⟩ := blockIdx0 t
  show (V c main_arg1 : S512x256.Idx → EReal) (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

/-- The output's block at point t, at (p, q), sits at (2000 t + p, q) of the array. -/
theorem outBlock0 (t : Fin cfg0.N) (p : Fin 2000) (q : Fin 256) :
    ((cfg0.win 2).blk t).view.emb (ix2 p q) = (ix2 ⟨t.val * 2000 + p.val, rowLt0 t p⟩ q : S50000x256.Idx) := by
  obtain ⟨-, -, -, -, e4, e5⟩ := blockIdx0 t
  refine funext fun a => Fin.ext ?_
  match a with
  | ⟨0, _⟩ => show win0_2.index t (0 : Fin 2) * 2000 + 1 * p.val = t.val * 2000 + p.val; omega
  | ⟨1, _⟩ => show win0_2.index t (1 : Fin 2) * 256 + 1 * q.val = q.val; omega

/-- What point t writes back is block t of the dense product of the two arrays as the kernel finds them. -/
theorem flushed0 (c : Dev nD) (t : Fin cfg0.N) :
    (dat0 (F := Ideal) V c).flushed 2 t = ((cfg0.win 2).blk t).view.read (Elt Ideal)
      (matProd (V c main_arg0 : S50000x512.Idx → EReal) (V c main_arg1 : S512x256.Idx → EReal)) := by
  show (cfg0.win 2).cut (grid0.coords t) ((dat0 (F := Ideal) V c).after 2 t) = _
  rw [after0_2]
  unfold out0_2
  rw [View.canon_unit_zero origin0]
  simp only [View.ld_unit_zero (S := S2000x512) origin0, View.ld_unit_zero (S := S512x256) origin0]
  funext j
  obtain ⟨p, q, rfl⟩ : ∃ (p : Fin 2000) (q : Fin 256), j = ix2 p q := ⟨j 0, j 1, eq_ix2 j⟩
  show k0_pay1 (iblk0 (F := Ideal) V c 0 t) (iblk0 (F := Ideal) V c 1 t) (ix2 p q)
    = matProd (V c main_arg0 : S50000x512.Idx → EReal) (V c main_arg1 : S512x256.Idx → EReal) (((cfg0.win 2).blk t).view.emb (ix2 p q))
  refine (pay0_apply (iblk0 (F := Ideal) V c 0 t) (iblk0 (F := Ideal) V c 1 t) p q).trans ?_
  rw [outBlock0 t p q, matProd_ix2]
  exact Finset.sum_congr rfl fun k _ => by rw [leftBlock0 V c t p k, rightBlock0 V c t k q]

/-- An index of the output array is in point t's block iff each coordinate is in the block's range on its axis. -/
theorem memBlock0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the output array is in the block of the point numbered  row / 2000. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, e4, e5⟩ := blockIdx0 ⟨(i 0).val / 2000, ht⟩
  refine ⟨⟨(i 0).val / 2000, ht⟩, flush0_2 _, ?_⟩
  rw [memBlock0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- After the last point the output array is the dense product. -/
theorem product0 (c : Dev nD) :
    (dat0 (F := Ideal) V c).arrAt 2 cfg0.N = matProd (V c main_arg0 : S50000x512.Idx → EReal) (V c main_arg1 : S512x256.Idx → EReal) :=
  (dat0 (F := Ideal) V c).arrAt_eq_of_cover 2 _ (fun t _ => flushed0 V c t) (covered0)

end Cert.KernelIdeal.Proj

end
-- ==== Proof.Region1.lean ====
/-
  What projection kernel 1 leaves in its output array, whatever the buffers hold when the kernel is entered.

  The grid has 25 points. At point t the body reads rows  2000 t .. 2000 t + 1999  of the left operand (all 256
  columns) and the whole right operand, and writes rows  2000 t .. 2000 t + 1999  of the output (all 128 columns).
  The stored block's entry (p, q) is the sum over k of  left (2000 t + p, k) * right (k, q),  which is the entry
  (2000 t + p, q) of the dense product of the two arrays. The 25 row blocks tile the output, so after the last point
  the output array is the dense product.
-/
import proofs.«152058_j28759101014034_1_alg».proof.Proof.Gen.KernelIdeal.Frame
import proofs.«152058_j28759101014034_1_alg».proof.Proof.MatmulRead
import proofs.«152058_j28759101014034_1_alg».proof.Proof.Spec

set_option maxRecDepth 16384

noncomputable section

open scoped BigOperators

namespace Cert.KernelIdeal.Proj

open Idealize.ShloMosaic Idealize.ShloMosaic.TcCoe Idealize.ShloMosaic.ValueIdx Idealize.ShloMosaic.Pipeline Idealize.SL.Sem Cert.KernelIdeal Cert.KernelIdeal.Gen Cert.Gcn

variable (V : (c : Dev nD) → (b : Ref sig .tc) → Buf (Elt Ideal) ((c : Thread nD τ).loc b))

theorem origin1 : (![0, 0] : Fin 2 → Nat) = fun _ => 0 := funext fun a => by fin_cases a <;> rfl

/-- The printed block-index maps over the grid: the left operand's and the output's row block is the point's number,
    every column block is 0, and the right operand is one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 2000 t + p of the array. -/
theorem rowLt1 (t : Fin cfg1.N) (p : Fin 2000) : t.val * 2000 + p.val < 50000 := by
  have ht : t.val < 25 := lt_of_lt_of_eq t.isLt N_1
  have hp := p.isLt
  omega

/-- The left operand's block at point t, at (p, k): the array at (2000 t + p, k). -/
theorem leftBlock1 (c : Dev nD) (t : Fin cfg1.N) (p : Fin 2000) (k : Fin 256) :
    iblk1 (F := Ideal) V c 0 t (ix2 p k) = (V c main_v47 : S50000x256.Idx → EReal) (ix2 ⟨t.val * 2000 + p.val, rowLt1 t p⟩ k) := by
  obtain ⟨e0, e1, -, -, -, -⟩ := blockIdx1 t
  show (V c main_v47 : S50000x256.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

/-- The right operand's block at any point is the whole array. -/
theorem rightBlock1 (c : Dev nD) (t : Fin cfg1.N) (k : Fin 256) (q : Fin 128) :
    iblk1 (F := Ideal) V c 1 t (ix2 k q) = (V c main_arg3 : S256x128.Idx → EReal) (ix2 k q) := by
  obtain ⟨-, -, e2, e3, -, -⟩ := blockIdx1 t
  show (V c main_arg3 : S256x128.Idx → EReal) (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The output's block at point t, at (p, q), sits at (2000 t + p, q) of the array. -/
theorem outBlock1 (t : Fin cfg1.N) (p : Fin 2000) (q : Fin 128) :
    ((cfg1.win 2).blk t).view.emb (ix2 p q) = (ix2 ⟨t.val * 2000 + p.val, rowLt1 t p⟩ q : S50000x128.Idx) := by
  obtain ⟨-, -, -, -, e4, e5⟩ := blockIdx1 t
  refine funext fun a => Fin.ext ?_
  match a with
  | ⟨0, _⟩ => show win1_2.index t (0 : Fin 2) * 2000 + 1 * p.val = t.val * 2000 + p.val; omega
  | ⟨1, _⟩ => show win1_2.index t (1 : Fin 2) * 128 + 1 * q.val = q.val; omega

/-- What point t writes back is block t of the dense product of the two arrays as the kernel finds them. -/
theorem flushed1 (c : Dev nD) (t : Fin cfg1.N) :
    (dat1 (F := Ideal) V c).flushed 2 t = ((cfg1.win 2).blk t).view.read (Elt Ideal)
      (matProd (V c main_v47 : S50000x256.Idx → EReal) (V c main_arg3 : S256x128.Idx → EReal)) := by
  show (cfg1.win 2).cut (grid1.coords t) ((dat1 (F := Ideal) V c).after 2 t) = _
  rw [after1_2]
  unfold out1_2
  rw [View.canon_unit_zero origin1]
  simp only [View.ld_unit_zero (S := S2000x256) origin1, View.ld_unit_zero (S := S256x128) origin1]
  funext j
  obtain ⟨p, q, rfl⟩ : ∃ (p : Fin 2000) (q : Fin 128), j = ix2 p q := ⟨j 0, j 1, eq_ix2 j⟩
  show k1_pay1 (iblk1 (F := Ideal) V c 0 t) (iblk1 (F := Ideal) V c 1 t) (ix2 p q)
    = matProd (V c main_v47 : S50000x256.Idx → EReal) (V c main_arg3 : S256x128.Idx → EReal) (((cfg1.win 2).blk t).view.emb (ix2 p q))
  refine (pay1_apply (iblk1 (F := Ideal) V c 0 t) (iblk1 (F := Ideal) V c 1 t) p q).trans ?_
  rw [outBlock1 t p q, matProd_ix2]
  exact Finset.sum_congr rfl fun k _ => by rw [leftBlock1 V c t p k, rightBlock1 V c t k q]

/-- An index of the output array is in point t's block iff each coordinate is in the block's range on its axis. -/
theorem memBlock1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every index of the output array is in the block of the point numbered  row / 2000. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, e4, e5⟩ := blockIdx1 ⟨(i 0).val / 2000, ht⟩
  refine ⟨⟨(i 0).val / 2000, ht⟩, flush1_2 _, ?_⟩
  rw [memBlock1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- After the last point the output array is the dense product. -/
theorem product1 (c : Dev nD) :
    (dat1 (F := Ideal) V c).arrAt 2 cfg1.N = matProd (V c main_v47 : S50000x256.Idx → EReal) (V c main_arg3 : S256x128.Idx → EReal) :=
  (dat1 (F := Ideal) V c).arrAt_eq_of_cover 2 _ (fun t _ => flushed1 V c t) (covered1)

end Cert.KernelIdeal.Proj

end
-- ==== Proof.KernelHost.lean ====
/-
  The idealized kernel's host operations, read as the functions of the specification.

  Three lines of host operations surround the two projection kernels. The first line (before the first kernel) builds the
  edge sources, the edge targets and the edge weights from the edge list and touches no float argument. The second line
  (between the kernels) takes the first product to the first layer's output. The third line (after the second kernel)
  takes the second product to the network's result. Each line leaves every buffer it does not write as it found it.
-/
import proofs.«152058_j28759101014034_1_alg».proof.Proof.Gen.KernelIdeal.Launch
import proofs.«152058_j28759101014034_1_alg».proof.Proof.Spec
import Idealize.ShloMosaic.Lib.StableHlo.Run

set_option maxRecDepth 16384

noncomputable section

namespace Cert.KernelIdeal.Proj

open Idealize.ShloMosaic Idealize.ShloMosaic.TcCoe Idealize.ShloMosaic.StableHlo Cert.KernelIdeal Cert.KernelIdeal.Gen Cert.Gcn

variable {F : FTy → Type} [FloatOps F]

/-- The buffers after the first line, from contents V. -/
abbrev afterPre (V : Valuation τ sig (Elt F)) : Valuation τ sig (Elt F) :=
  after hostOps0_2 (after hostOps0_1 (after hostOps0 V))

/-- The buffers after the second line, from contents V. -/
abbrev afterMid (V : Valuation τ sig (Elt F)) : Valuation τ sig (Elt F) :=
  after hostOps1_1 (after hostOps1 V)

/-! ## The first line -/

theorem pre_src (V : Valuation τ sig (Elt F)) : afterPre V (Proc.devRef .tc main_v3) = srcOf (V (Proc.devRef .tc main_arg5)) := by
  dsimp only [afterPre, hostOps0, hostOps0_1, hostOps0_2]; after_results_simp; rfl

theorem pre_dst (V : Valuation τ sig (Elt F)) : afterPre V (Proc.devRef .tc main_v6) = dstOf (V (Proc.devRef .tc main_arg5)) := by
  dsimp only [afterPre, hostOps0, hostOps0_1, hostOps0_2]; after_results_simp; rfl

theorem pre_norm (V : Valuation τ sig (Elt F)) :
    afterPre V (Proc.devRef .tc main_v29) = normOf (srcOf (V (Proc.devRef .tc main_arg5))) (dstOf (V (Proc.devRef .tc main_arg5))) := by
  dsimp only [afterPre, hostOps0, hostOps0_1, hostOps0_2]; after_results_simp; rfl

theorem pre_arg0 (V : Valuation τ sig (Elt F)) : afterPre V (Proc.devRef .tc main_arg0) = V (Proc.devRef .tc main_arg0) := by
  dsimp only [afterPre, hostOps0, hostOps0_1, hostOps0_2]; after_results_simp

theorem pre_arg1 (V : Valuation τ sig (Elt F)) : afterPre V (Proc.devRef .tc main_arg1) = V (Proc.devRef .tc main_arg1) := by
  dsimp only [afterPre, hostOps0, hostOps0_1, hostOps0_2]; after_results_simp

theorem pre_arg2 (V : Valuation τ sig (Elt F)) : afterPre V (Proc.devRef .tc main_arg2) = V (Proc.devRef .tc main_arg2) := by
  dsimp only [afterPre, hostOps0, hostOps0_1, hostOps0_2]; after_results_simp

theorem pre_arg3 (V : Valuation τ sig (Elt F)) : afterPre V (Proc.devRef .tc main_arg3) = V (Proc.devRef .tc main_arg3) := by
  dsimp only [afterPre, hostOps0, hostOps0_1, hostOps0_2]; after_results_simp

theorem pre_arg4 (V : Valuation τ sig (Elt F)) : afterPre V (Proc.devRef .tc main_arg4) = V (Proc.devRef .tc main_arg4) := by
  dsimp only [afterPre, hostOps0, hostOps0_1, hostOps0_2]; after_results_simp

/-! ## The second line -/

theorem mid_layer (V : Valuation τ sig (Elt F)) :
    afterMid V (Proc.devRef .tc main_v47) = layer1 (V (Proc.devRef .tc main_v30)) (V (Proc.devRef .tc main_v3)) (V (Proc.devRef .tc main_v6)) (V (Proc.devRef .tc main_v29)) (V (Proc.devRef .tc main_arg2)) := by
  dsimp only [afterMid, hostOps1, hostOps1_1]; after_results_simp; rfl

theorem mid_v3 (V : Valuation τ sig (Elt F)) : afterMid V (Proc.devRef .tc main_v3) = V (Proc.devRef .tc main_v3) := by
  dsimp only [afterMid, hostOps1, hostOps1_1]; after_results_simp

theorem mid_v6 (V : Valuation τ sig (Elt F)) : afterMid V (Proc.devRef .tc main_v6) = V (Proc.devRef .tc main_v6) := by
  dsimp only [afterMid, hostOps1, hostOps1_1]; after_results_simp

theorem mid_v29 (V : Valuation τ sig (Elt F)) : afterMid V (Proc.devRef .tc main_v29) = V (Proc.devRef .tc main_v29) := by
  dsimp only [afterMid, hostOps1, hostOps1_1]; after_results_simp

theorem mid_arg3 (V : Valuation τ sig (Elt F)) : afterMid V (Proc.devRef .tc main_arg3) = V (Proc.devRef .tc main_arg3) := by
  dsimp only [afterMid, hostOps1, hostOps1_1]; after_results_simp

theorem mid_arg4 (V : Valuation τ sig (Elt F)) : afterMid V (Proc.devRef .tc main_arg4) = V (Proc.devRef .tc main_arg4) := by
  dsimp only [afterMid, hostOps1, hostOps1_1]; after_results_simp

/-! ## The third line -/

theorem tail_layer (V : Valuation τ sig (Elt F)) :
    after hostOps2 V (Proc.devRef .tc main_v70) = layer2 (V (Proc.devRef .tc main_v48)) (V (Proc.devRef .tc main_v3)) (V (Proc.devRef .tc main_v6)) (V (Proc.devRef .tc main_v29)) (V (Proc.devRef .tc main_arg4)) := by
  dsimp only [hostOps2]; after_results_simp; rfl

end Cert.KernelIdeal.Proj

end
-- ==== Proof.KernelValue.lean ====
/-
  The idealized kernel's result buffer, as the network of the specification with both projections the exact dense product.

  Follow the buffers through @main's segments. The first line of host operations leaves the edge sources, targets and
  weights (functions of the edge list alone) and keeps the float arguments. The first kernel writes the product x W1 into
  its output array and nothing else. The second line turns that product into the first layer's output and keeps the
  edge data and the remaining arguments. The second kernel writes the product of the first layer's output with W2.
  The last line turns that into the result.
-/
import proofs.«152058_j28759101014034_1_alg».proof.Proof.Gen.KernelIdeal.Frame
import proofs.«152058_j28759101014034_1_alg».proof.Proof.Region0
import proofs.«152058_j28759101014034_1_alg».proof.Proof.Region1
import proofs.«152058_j28759101014034_1_alg».proof.Proof.KernelHost

set_option maxRecDepth 16384

noncomputable section

namespace Cert.KernelIdeal.Proj

open Idealize.ShloMosaic Idealize.ShloMosaic.TcCoe Idealize.ShloMosaic.StableHlo Idealize.SL.Sem Cert.KernelIdeal Cert.KernelIdeal.Gen Cert.Gcn

variable (m : (ℓ : Loc nD τ sig) → Buf (Elt Ideal) ℓ) (ρ : Dev nD → PrngReg) (c : Dev nD)

/-! ## The argument arrays as launched -/

abbrev argX : Arr Ideal S50000x512 .f32 := m ((c : Thread nD τ).loc main_arg0)
abbrev argW1 : Arr Ideal S512x256 .f32 := m ((c : Thread nD τ).loc main_arg1)
abbrev argB1 : Arr Ideal S256 .f32 := m ((c : Thread nD τ).loc main_arg2)
abbrev argW2 : Arr Ideal S256x128 .f32 := m ((c : Thread nD τ).loc main_arg3)
abbrev argB2 : Arr Ideal S128 .f32 := m ((c : Thread nD τ).loc main_arg4)
abbrev argE : Arr Ideal S2x800000 .i32 := m ((c : Thread nD τ).loc main_arg5)

/-! ## When the first kernel is entered -/

theorem entry0_src : W3 m ρ c (Proc.devRef .tc main_v3) = srcOf (argE m c) := pre_src (W0 m ρ c)
theorem entry0_dst : W3 m ρ c (Proc.devRef .tc main_v6) = dstOf (argE m c) := pre_dst (W0 m ρ c)
theorem entry0_norm : W3 m ρ c (Proc.devRef .tc main_v29) = normOf (srcOf (argE m c)) (dstOf (argE m c)) := pre_norm (W0 m ρ c)
theorem entry0_x : W3 m ρ c (Proc.devRef .tc main_arg0) = argX m c := pre_arg0 (W0 m ρ c)
theorem entry0_w1 : W3 m ρ c (Proc.devRef .tc main_arg1) = argW1 m c := pre_arg1 (W0 m ρ c)
theorem entry0_b1 : W3 m ρ c (Proc.devRef .tc main_arg2) = argB1 m c := pre_arg2 (W0 m ρ c)
theorem entry0_w2 : W3 m ρ c (Proc.devRef .tc main_arg3) = argW2 m c := pre_arg3 (W0 m ρ c)
theorem entry0_b2 : W3 m ρ c (Proc.devRef .tc main_arg4) = argB2 m c := pre_arg4 (W0 m ρ c)

/-! ## When the first kernel has finished -/

/-- Its output array holds x W1. -/
theorem exit0_prod : W4 m ρ c (Proc.devRef .tc main_v30) = matProd (argX m c) (argW1 m c) := by
  refine (W4_arr m ρ c 2).trans ((product0 (V3 m ρ) c).trans ?_)
  rw [show V3 m ρ c main_arg0 = argX m c from entry0_x m ρ c, show V3 m ρ c main_arg1 = argW1 m c from entry0_w1 m ρ c]

theorem exit0_src : W4 m ρ c (Proc.devRef .tc main_v3) = srcOf (argE m c) := (W4_of_ne m ρ c main_v3 (by decide)).trans (entry0_src m ρ c)
theorem exit0_dst : W4 m ρ c (Proc.devRef .tc main_v6) = dstOf (argE m c) := (W4_of_ne m ρ c main_v6 (by decide)).trans (entry0_dst m ρ c)
theorem exit0_norm : W4 m ρ c (Proc.devRef .tc main_v29) = normOf (srcOf (argE m c)) (dstOf (argE m c)) :=
  (W4_of_ne m ρ c main_v29 (by decide)).trans (entry0_norm m ρ c)
theorem exit0_b1 : W4 m ρ c (Proc.devRef .tc main_arg2) = argB1 m c := (W4_of_ne m ρ c main_arg2 (by decide)).trans (entry0_b1 m ρ c)
theorem exit0_w2 : W4 m ρ c (Proc.devRef .tc main_arg3) = argW2 m c := (W4_of_ne m ρ c main_arg3 (by decide)).trans (entry0_w2 m ρ c)
theorem exit0_b2 : W4 m ρ c (Proc.devRef .tc main_arg4) = argB2 m c := (W4_of_ne m ρ c main_arg4 (by decide)).trans (entry0_b2 m ρ c)

/-! ## When the second kernel is entered -/

/-- The first layer's output. -/
def hidden : Arr Ideal S50000x256 .f32 :=
  layer1 (matProd (argX m c) (argW1 m c)) (srcOf (argE m c)) (dstOf (argE m c)) (normOf (srcOf (argE m c)) (dstOf (argE m c))) (argB1 m c)

theorem entry1_hidden : W6 m ρ c (Proc.devRef .tc main_v47) = hidden m c := by
  refine (mid_layer (W4 m ρ c)).trans ?_
  rw [exit0_prod, exit0_src, exit0_dst, exit0_norm, exit0_b1]
  rfl

theorem entry1_src : W6 m ρ c (Proc.devRef .tc main_v3) = srcOf (argE m c) := (mid_v3 (W4 m ρ c)).trans (exit0_src m ρ c)
theorem entry1_dst : W6 m ρ c (Proc.devRef .tc main_v6) = dstOf (argE m c) := (mid_v6 (W4 m ρ c)).trans (exit0_dst m ρ c)
theorem entry1_norm : W6 m ρ c (Proc.devRef .tc main_v29) = normOf (srcOf (argE m c)) (dstOf (argE m c)) :=
  (mid_v29 (W4 m ρ c)).trans (exit0_norm m ρ c)
theorem entry1_w2 : W6 m ρ c (Proc.devRef .tc main_arg3) = argW2 m c := (mid_arg3 (W4 m ρ c)).trans (exit0_w2 m ρ c)
theorem entry1_b2 : W6 m ρ c (Proc.devRef .tc main_arg4) = argB2 m c := (mid_arg4 (W4 m ρ c)).trans (exit0_b2 m ρ c)

/-! ## When the second kernel has finished -/

/-- Its output array holds hidden W2. -/
theorem exit1_prod : W7 m ρ c (Proc.devRef .tc main_v48) = matProd (hidden m c) (argW2 m c) := by
  refine (W7_arr m ρ c 2).trans ((product1 (V6 m ρ) c).trans ?_)
  rw [show V6 m ρ c main_v47 = hidden m c from entry1_hidden m ρ c, show V6 m ρ c main_arg3 = argW2 m c from entry1_w2 m ρ c]

theorem exit1_src : W7 m ρ c (Proc.devRef .tc main_v3) = srcOf (argE m c) := (W7_of_ne m ρ c main_v3 (by decide)).trans (entry1_src m ρ c)
theorem exit1_dst : W7 m ρ c (Proc.devRef .tc main_v6) = dstOf (argE m c) := (W7_of_ne m ρ c main_v6 (by decide)).trans (entry1_dst m ρ c)
theorem exit1_norm : W7 m ρ c (Proc.devRef .tc main_v29) = normOf (srcOf (argE m c)) (dstOf (argE m c)) :=
  (W7_of_ne m ρ c main_v29 (by decide)).trans (entry1_norm m ρ c)
theorem exit1_b2 : W7 m ρ c (Proc.devRef .tc main_arg4) = argB2 m c := (W7_of_ne m ρ c main_arg4 (by decide)).trans (entry1_b2 m ρ c)

/-! ## At the return -/

/-- The result buffer holds the network with both projections the exact dense product. -/
theorem result_eq : W8 m ρ c (Proc.devRef .tc main_v70)
    = net (F := Ideal) (fun a w => matProd a w) (fun a w => matProd a w) (argX m c) (argW1 m c) (argB1 m c) (argW2 m c) (argB2 m c) (argE m c) := by
  refine (tail_layer (W7 m ρ c)).trans ?_
  rw [exit1_prod, exit1_src, exit1_dst, exit1_norm, exit1_b2]
  rfl

end Cert.KernelIdeal.Proj

end
-- ==== Proof.RefValue.lean ====
/-
  The idealized reference's result buffer, as the network of the specification.

  The reference is one straight line of 91 host operations: the same sparse operations as the kernel's program, with
  a dot_general where the kernel's program launches a projection kernel. Folding the line from the launch contents,
  the result buffer holds the network with both projections the host's dot_general; and over the extended reals the
  host's dot_general of an M x K by a K x N array is the dense product, entry (r, c) the sum over k of l (r, k) * r (k, c).
-/
import proofs.«152058_j28759101014034_1_alg».proof.Proof.RefRun
import proofs.«152058_j28759101014034_1_alg».proof.Proof.Spec
import proofs.«152058_j28759101014034_1_alg».proof.Proof.LibDotIx2
import proofs.«152058_j28759101014034_1_alg».proof.Proof.MatmulRead

set_option maxRecDepth 16384

noncomputable section

open scoped BigOperators

namespace Cert.ReferenceIdeal.RefValue

open Idealize.ShloMosaic Idealize.ShloMosaic.TcCoe Idealize.ShloMosaic.StableHlo Idealize.ShloMosaic.ValueIdx
open Cert.ReferenceIdeal Cert.ReferenceIdeal.Gen Cert.ReferenceIdeal.RunP Cert.Gcn

/-- The reference's two dot_general operations have a plain product's dimension numbers. -/
theorem plainRef1 : PlainDot dot_S50000x512_S512x256_S50000x256_1_0_0_1_n_n := PlainDot.of_lists _ rfl rfl rfl rfl rfl rfl
theorem plainRef2 : PlainDot dot_S50000x256_S256x128_S50000x128_1_0_0_1_n_n := PlainDot.of_lists _ rfl rfl rfl rfl rfl rfl

/-- Over the extended reals the host's first dot_general is the dense product. -/
theorem dot1_eq (l : Arr Ideal Cert.KernelIdeal.S50000x512 .f32) (r : Arr Ideal Cert.KernelIdeal.S512x256 .f32) :
    Host.dotGeneral (F := Ideal) (φ₁ := .f32) (φ₂ := .f32) dot_S50000x512_S512x256_S50000x256_1_0_0_1_n_n none l r = matProd l r := by
  funext i
  obtain ⟨a, b, rfl⟩ : ∃ (a : Fin 50000) (b : Fin 256), i = ix2 a b := ⟨i 0, i 1, eq_ix2 i⟩
  simp only [Host.dotGeneral]
  exact dotGeneral_ix2_any plainRef1 none _ l r a b

/-- And the second. -/
theorem dot2_eq (l : Arr Ideal Cert.KernelIdeal.S50000x256 .f32) (r : Arr Ideal Cert.KernelIdeal.S256x128 .f32) :
    Host.dotGeneral (F := Ideal) (φ₁ := .f32) (φ₂ := .f32) dot_S50000x256_S256x128_S50000x128_1_0_0_1_n_n none l r = matProd l r := by
  funext i
  obtain ⟨a, b, rfl⟩ : ∃ (a : Fin 50000) (b : Fin 128), i = ix2 a b := ⟨i 0, i 1, eq_ix2 i⟩
  simp only [Host.dotGeneral]
  exact dotGeneral_ix2_any plainRef2 none _ l r a b

variable {F : FTy → Type} [FloatOps F]

set_option maxHeartbeats 40000000 in
/-- The line folded from contents V: the result buffer holds the network over the host's dot_general. -/
theorem ops_result (V : Valuation τ sig (Elt F)) :
    after (ops (F := F)) V (Proc.devRef .tc main_v70)
      = net (fun l r => Host.dotGeneral (φ₁ := .f32) (φ₂ := .f32) dot_S50000x512_S512x256_S50000x256_1_0_0_1_n_n none l r)
          (fun l r => Host.dotGeneral (φ₁ := .f32) (φ₂ := .f32) dot_S50000x256_S256x128_S50000x128_1_0_0_1_n_n none l r)
          (V (Proc.devRef .tc main_arg0)) (V (Proc.devRef .tc main_arg1)) (V (Proc.devRef .tc main_arg2)) (V (Proc.devRef .tc main_arg3)) (V (Proc.devRef .tc main_arg4)) (V (Proc.devRef .tc main_arg5)) := by
  dsimp only [ops]; after_results_simp; rfl

/-- Over the extended reals: the network with both projections the exact dense product. -/
theorem ops_result_ideal (V : Valuation τ sig (Elt Ideal)) :
    after (ops (F := Ideal)) V (Proc.devRef .tc main_v70)
      = net (F := Ideal) (fun a w => matProd a w) (fun a w => matProd a w)
          (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_result]
  congr 1
  · exact funext fun l => funext fun r => dot1_eq l r
  · exact funext fun l => funext fun r => dot2_eq l r

end Cert.ReferenceIdeal.RefValue

end
-- ==== Proof.lean ====
/-
  A two-layer graph convolution network, sigmoid (conv (relu (conv (x W1) + b1) W2) + b2) over 50000 nodes and 850000
  edges (800000 given, one self-loop per node), computed two ways that agree over the extended reals.

  The kernel's program runs each dense projection (x W1, then hidden W2) as a tiled matrix-unit kernel over 25 row
  blocks of 2000 rows, operands rounded to bf16 on the way in; the reference applies one dot_general. Rounding is the
  identity over the extended reals and a product into a zero accumulator is the exact sum over the inner index, so both
  projections are the dense product in both programs. Everything else (edge lists, degrees, symmetric normalisation,
  gather, scale, scatter-add, bias, relu, sigmoid) is the same sequence of host operations in both programs, carried here
  as named functions of the arrays and never opened. No finiteness of the inputs is used.

  frame: the generated frames for the two kernel programs; the reference's straight-line run for the reference.
  preserves: the idealization rewrote nothing.
  algebraic: both result buffers are the specification's network with the dense product for both projections.
-/
import proofs.«152058_j28759101014034_1_alg».proof.Defs
import proofs.«152058_j28759101014034_1_alg».proof.Proof.Gen.Kernel
import proofs.«152058_j28759101014034_1_alg».proof.Proof.Gen.Kernel.Skeleton
import proofs.«152058_j28759101014034_1_alg».proof.Proof.Gen.Kernel.Launch
import proofs.«152058_j28759101014034_1_alg».proof.Proof.Gen.Kernel.Points
import proofs.«152058_j28759101014034_1_alg».proof.Proof.Gen.Kernel.Frame
import proofs.«152058_j28759101014034_1_alg».proof.Proof.Gen.KernelIdeal
import proofs.«152058_j28759101014034_1_alg».proof.Proof.Gen.KernelIdeal.Skeleton
import proofs.«152058_j28759101014034_1_alg».proof.Proof.Gen.KernelIdeal.Launch
import proofs.«152058_j28759101014034_1_alg».proof.Proof.Gen.KernelIdeal.Points
import proofs.«152058_j28759101014034_1_alg».proof.Proof.Gen.KernelIdeal.Frame
import proofs.«152058_j28759101014034_1_alg».proof.Proof.Gen.ReferenceIdeal
import proofs.«152058_j28759101014034_1_alg».proof.Proof.Gen.Pre_finite_inputs
import proofs.«152058_j28759101014034_1_alg».proof.Proof.KernelRun
import proofs.«152058_j28759101014034_1_alg».proof.Proof.KernelValue
import proofs.«152058_j28759101014034_1_alg».proof.Proof.RefRun
import proofs.«152058_j28759101014034_1_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's run with the result's conjunct dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the result buffer at the same function of the (agreeing) argument arrays. -/
theorem algebraic : Cert.algebraic_KernelIdeal_ReferenceIdeal := by
  intro m ρ m' ρ' _ hagree
  refine ⟨fun c => net (F := Ideal) (fun a w => matProd a w) (fun a w => matProd a w)
      (Cert.KernelIdeal.Proj.argX m c) (Cert.KernelIdeal.Proj.argW1 m c) (Cert.KernelIdeal.Proj.argB1 m c)
      (Cert.KernelIdeal.Proj.argW2 m c) (Cert.KernelIdeal.Proj.argB2 m c) (Cert.KernelIdeal.Proj.argE m c), ?_, ?_⟩
  · exact (θ_run Cert.KernelIdeal.defs _ _).mono
      (fun r h c => ⟨(h c).1.trans (Cert.KernelIdeal.Proj.result_eq m ρ c), (h c).2⟩)
      (Cert.KernelIdeal.Proj.run_named (F := Ideal) m ρ)
  · refine (θ_run Cert.ReferenceIdeal.defs _ _).mono (fun r h c => ⟨(h c).1.trans ?_, (h c).2⟩)
      (Cert.ReferenceIdeal.RunP.run (F := Ideal) m' ρ')
    refine (Cert.ReferenceIdeal.RefValue.ops_result_ideal _).trans ?_
    obtain ⟨h0, h1, h2, h3, h4, h5⟩ := hagree c
    show net (F := Ideal) (fun a w => matProd a w) (fun a w => matProd a w)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
